-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel

variable [Facts]

def fn {F : FTy → Type} [FloatOps F] (main_arg0 : FVec F S128x2048x7x7 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  main_v3
-- ==== Kernel.lean ====
abbrev S128x2048x7x7 : Shape := ⟨4, ![128, 2048, 7, 7]⟩
abbrev S262144x49 : Shape := ⟨2, ![262144, 49]⟩
abbrev S262144x1 : Shape := ⟨2, ![262144, 1]⟩
abbrev S4096x49 : Shape := ⟨2, ![4096, 49]⟩
abbrev S4096x1 : Shape := ⟨2, ![4096, 1]⟩
abbrev S4096 : Shape := ⟨1, ![4096]⟩
abbrev S49x1 : Shape := ⟨2, ![49, 1]⟩
abbrev S128x2048 : Shape := ⟨2, ![128, 2048]⟩
abbrev S128x4096 : Shape := ⟨2, ![128, 4096]⟩
abbrev S128x4096x1x1 : Shape := ⟨4, ![128, 4096, 1, 1]⟩

abbrev nBuf : Space → Nat
  | .hbm => 8
  | .vmem => 6
  | .smem => 0
  | _ => 0

abbrev bufTy : (tb : Table) → Fin (tcTables nBuf tb) → BufTy
  | .hbm, ⟨0, _⟩ => ⟨S128x2048x7x7, .f32⟩
  | .hbm, ⟨1, _⟩ => ⟨S262144x49, .f32⟩
  | .hbm, ⟨2, _⟩ => ⟨S262144x1, .f32⟩
  | .hbm, ⟨3, _⟩ => ⟨S262144x1, .f32⟩
  | .hbm, ⟨4, _⟩ => ⟨S128x2048, .f32⟩
  | .hbm, ⟨5, _⟩ => ⟨S128x2048, .f32⟩
  | .hbm, ⟨6, _⟩ => ⟨S128x4096, .f32⟩
  | .hbm, ⟨7, _⟩ => ⟨S128x4096x1x1, .f32⟩
  | .local _ .vmem, ⟨0, _⟩ => ⟨S4096x49, .f32⟩
  | .local _ .vmem, ⟨1, _⟩ => ⟨S4096x49, .f32⟩
  | .local _ .vmem, ⟨2, _⟩ => ⟨S4096x1, .f32⟩
  | .local _ .vmem, ⟨3, _⟩ => ⟨S4096x1, .f32⟩
  | .local _ .vmem, ⟨4, _⟩ => ⟨S4096x1, .f32⟩
  | .local _ .vmem, ⟨5, _⟩ => ⟨S4096x1, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x2048x7x7_S262144x49 : S128x2048x7x7.ShapeCasts S262144x49
  inb_S4096x49_S4096x49_0_0 : ∀ a, (![0, 0] : Fin 2 → Nat) a + S4096x49.size a ≤ S4096x49.size a
  h_S4096x49 : 0 < S4096x49.numel
  shapeCasts_S4096x49_S4096x49 : S4096x49.ShapeCasts S4096x49
  reduces_S4096x49_S4096 : S4096x49.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S262144x1_S128x2048 : S262144x1.ShapeCasts S128x2048
  concatenates_S128x2048_S128x2048_S128x4096_d1 : Shape.Concatenates [S128x2048, S128x2048] S128x4096 1
  shapeCasts_S128x4096_S128x4096x1x1 : S128x4096.ShapeCasts S128x4096x1x1
  dot_S4096x49_S49x1_S4096x1_1_0_0_1_n_n_wf : DotDims.WF S4096x49 S49x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x49.size a ≤ S262144x49.size a
  hwx0_0 : ∀ i : grid0.Coords, EltTy.bits .f32 = 32 ∨ (Rect.block (s := S262144x49) S4096x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S262144x1.size a
  hwx0_2 : ∀ i : grid0.Coords, EltTy.bits .f32 = 32 ∨ (Rect.block (s := S262144x1) S4096x1.size (cc0_transform_2 i) (hinb0_2 i)).WholeWords (EltTy.packing .f32)

variable [Facts₀]

def dot_S4096x49_S49x1_S4096x1_1_0_0_1_n_n : DotDims S4096x49 S49x1 S4096x1 where
  lhsContracting := [1]
  rhsContracting := [0]
  lhsNonContracting := [0]
  rhsNonContracting := [1]
  lhsBatch := []
  rhsBatch := []
  wf := dot_S4096x49_S49x1_S4096x1_1_0_0_1_n_n_wf

abbrev win0_0 : Pipeline.Window sig grid0 :=
  Pipeline.Window.ofSpec (Memref.whole main_v0) S4096x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S4096x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S128x2048x49 : Shape := ⟨3, ![128, 2048, 49]⟩
abbrev S128x2x2048 : Shape := ⟨3, ![128, 2, 2048]⟩
abbrev S5x2048x49 : Shape := ⟨3, ![5, 2048, 49]⟩
abbrev S5x2x2048 : Shape := ⟨3, ![5, 2, 2048]⟩
abbrev S5x2048 : Shape := ⟨2, ![5, 2048]⟩
abbrev S5x1x2048 : Shape := ⟨3, ![5, 1, 2048]⟩
abbrev S128x4096x1x1 : Shape := ⟨4, ![128, 4096, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S128x2048x7x7, .f32⟩
  | .hbm, ⟨1, _⟩ => ⟨S128x2048x49, .f32⟩
  | .hbm, ⟨2, _⟩ => ⟨S128x2x2048, .f32⟩
  | .hbm, ⟨3, _⟩ => ⟨S128x4096x1x1, .f32⟩
  | .local _ .vmem, ⟨0, _⟩ => ⟨S5x2048x49, .f32⟩
  | .local _ .vmem, ⟨1, _⟩ => ⟨S5x2048x49, .f32⟩
  | .local _ .vmem, ⟨2, _⟩ => ⟨S5x2x2048, .f32⟩
  | .local _ .vmem, ⟨3, _⟩ => ⟨S5x2x2048, .f32⟩
  | .local _ .vmem, ⟨4, _⟩ => ⟨S5x2048, .f32⟩
  | .local _ .vmem, ⟨5, _⟩ => ⟨S5x2048, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![26, 1, 1], ![false, false, false]⟩

def k0_cond2 (i : grid0.Coords) : BitVec 1 :=
  let arg2 : BitVec 32 := BitVec.ofNat 32 (i 2).val
  let c0_i32_12 : BitVec 32 := 0#32
  let v17 : BitVec 1 := Scalar.cmpi .eq arg2 c0_i32_12
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S5x2048x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S5x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

class Facts₀ : Prop where
  shapeCasts_S128x2048x7x7_S128x2048x49 : S128x2048x7x7.ShapeCasts S128x2048x49
  inb_S5x2048_S5x2048_0_0 : ∀ a, (![0, 0] : Fin 2 → Nat) a + S5x2048.size a ≤ S5x2048.size a
  h_S5x2048 : 0 < S5x2048.numel
  shapeCasts_S5x2048_S5x2048 : S5x2048.ShapeCasts S5x2048
  inb_S5x2048x49_S5x2048x49_0_0_0 : ∀ a, (![0, 0, 0] : Fin 3 → Nat) a + S5x2048x49.size a ≤ S5x2048x49.size a
  h_S5x2048x49 : 0 < S5x2048x49.numel
  shapeCasts_S5x2048x49_S5x2048x49 : S5x2048x49.ShapeCasts S5x2048x49
  reduces_S5x2048x49_S5x2048 : S5x2048x49.Reduces [2] S5x2048
  inb_S5x2x2048_S5x1x2048_0_0_0 : ∀ a, (![0, 0, 0] : Fin 3 → Nat) a + S5x1x2048.size a ≤ S5x2x2048.size a
  h_S5x1x2048 : 0 < S5x1x2048.numel
  shapeCasts_S5x1x2048_S5x2048 : S5x1x2048.ShapeCasts S5x2048
  shapeCasts_S5x2048_S5x1x2048 : S5x2048.ShapeCasts S5x1x2048
  inb_S5x2x2048_S5x1x2048_0_1_0 : ∀ a, (![0, 1, 0] : Fin 3 → Nat) a + S5x1x2048.size a ≤ S5x2x2048.size a
  shapeCasts_S128x2x2048_S128x4096x1x1 : S128x2x2048.ShapeCasts S128x4096x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S5x2048x49.size a < S128x2048x49.size a
  hwx0_0 : ∀ i : grid0.Coords, EltTy.bits .f32 = 32 ∨ (Rect.unit (s := S128x2048x49) (fun a => cc0_transform_0 i a * S5x2048x49.size a) (fun a => (Pipeline.Clip.of (cc0_transform_0 i a) (S5x2048x49.size a) (S128x2048x49.size a)).extent (S5x2048x49.size a)) fun a => Pipeline.Clip.inb (Pipeline.Clip.ok_of (hstart0_0 i a))).WholeWords (EltTy.packing .f32)
  hwxs0_0 : ∀ i : grid0.Coords, EltTy.bits .f32 = 32 ∨ (Rect.unit (s := S5x2048x49) (fun _ => 0) (fun a => (Pipeline.Clip.of (cc0_transform_0 i a) (S5x2048x49.size a) (S128x2048x49.size a)).extent (S5x2048x49.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S5x2x2048.size a < S128x2x2048.size a
  hwx0_1 : ∀ i : grid0.Coords, EltTy.bits .f32 = 32 ∨ (Rect.unit (s := S128x2x2048) (fun a => cc0_transform_1 i a * S5x2x2048.size a) (fun a => (Pipeline.Clip.of (cc0_transform_1 i a) (S5x2x2048.size a) (S128x2x2048.size a)).extent (S5x2x2048.size a)) fun a => Pipeline.Clip.inb (Pipeline.Clip.ok_of (hstart0_1 i a))).WholeWords (EltTy.packing .f32)
  hwxs0_1 : ∀ i : grid0.Coords, EltTy.bits .f32 = 32 ∨ (Rect.unit (s := S5x2x2048) (fun _ => 0) (fun a => (Pipeline.Clip.of (cc0_transform_1 i a) (S5x2x2048.size a) (S128x2x2048.size a)).extent (S5x2x2048.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_v0) S5x2048x49.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S5x2x2048.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== Proof.PoolSpec.lean ====
/-
  Global max-pooling and mean-pooling of a [128, 2048, 7, 7] array over its 7 × 7 positions, concatenated on the
  channel axis: the function both programs compute.

  For sample `n` and channel `ch` the 49 positions are `x (n, ch, k / 7, k % 7)`, `k < 49`. The result at
  `(n, j, 0, 0)` is, for `j < 2048`, the maximum of channel `j`'s positions (a fold of `max` from the word of -∞),
  and for `j ≥ 2048` the sum of channel `j - 2048`'s positions times the single-precision word nearest 1/49.
  Both programs multiply by that same word, so it is never evaluated.

  `max` on the extended reals commutes and associates, so a fold of `max` absorbs a further `max` with its own
  starting value (`max_fold_self`); a sum is unchanged by adding the word of 0 (`zero_word_add`) and a term by
  multiplying with the word of 1 (`mul_one_word`). These are the only laws the two programs' agreement needs,
  and none of them asks the entries to be finite.
-/
import Idealize.ShloMosaic.Lib.ValueIdx
import Idealize.ShloMosaic.PureOps.Ideal
import Idealize.ShloMosaic.PureOps.Ideal.Laws
import Idealize.ShloMosaic.PureOps.IdealRules

noncomputable section

namespace Cert.Pool

open Idealize.ShloMosaic Idealize.ShloMosaic.ValueIdx

abbrev SX : Shape := ⟨4, ![128, 2048, 7, 7]⟩
abbrev SO : Shape := ⟨4, ![128, 4096, 1, 1]⟩

/-- Position `k` of the 49 of sample `n`, channel `ch`. -/
def cell (n : Fin 128) (ch : Fin 2048) (k : Fin 49) : SX.Idx :=
  ix4 n ch (⟨k.val / 7, by have := k.isLt; omega⟩ : Fin 7) (⟨k.val % 7, by omega⟩ : Fin 7)

/-- The word of -∞ the maxima start from, and the word nearest 1/49 the sums are scaled by. -/
def negInf : EReal := Ideal.ofBits .f32 0xFF800000#32
def inv49 : EReal := Ideal.ofBits .f32 0x3CA72F05#32

/-- A channel's maximum and its scaled sum. -/
def chanMax (x : SX.Idx → EReal) (n : Fin 128) (ch : Fin 2048) : EReal :=
  (Finset.univ : Finset (Fin 49)).fold max negInf (fun k => x (cell n ch k))
def chanMean (x : SX.Idx → EReal) (n : Fin 128) (ch : Fin 2048) : EReal :=
  (∑ k : Fin 49, x (cell n ch k)) * inv49

/-- The pooled array: maxima in channels 0 … 2047, scaled sums in channels 2048 … 4095. -/
def pooled (x : SX.Idx → EReal) : SO.Idx → EReal := fun i =>
  if h : (i 1).val < 2048 then chanMax x (i 0) ⟨(i 1).val, h⟩
  else chanMean x (i 0) ⟨(i 1).val - 2048, by have h4 : (i 1).val < 4096 := (i 1).isLt; omega⟩

/-- A channel's maximum and scaled sum depend on the sample and the channel by their numbers alone. -/
theorem chanMax_congr (x : SX.Idx → EReal) {n n' : Fin 128} {ch ch' : Fin 2048} (hn : n.val = n'.val) (hc : ch.val = ch'.val) :
    chanMax x n ch = chanMax x n' ch' := by
  obtain rfl := Fin.ext hn; obtain rfl := Fin.ext hc; rfl
theorem chanMean_congr (x : SX.Idx → EReal) {n n' : Fin 128} {ch ch' : Fin 2048} (hn : n.val = n'.val) (hc : ch.val = ch'.val) :
    chanMean x n ch = chanMean x n' ch' := by
  obtain rfl := Fin.ext hn; obtain rfl := Fin.ext hc; rfl

/-- A fold of `max` is at least its starting value, so a further `max` with that value changes nothing. -/
theorem max_fold_self {ι : Type} [DecidableEq ι] (s : Finset ι) (b : EReal) (f : ι → EReal) :
    max b (s.fold max b f) = s.fold max b f :=
  max_eq_right (Finset.le_fold_max b |>.mpr (Or.inl le_rfl))

/-- Adding the word of zero changes nothing. -/
theorem zero_word_add (a : EReal) : Ideal.ofBits .f32 0x00000000#32 + a = a := by
  rw [Ideal.ofBits_zero_f32, zero_add]

/-- Multiplying by the word of one changes nothing. -/
theorem mul_one_word (a : EReal) : a * Ideal.ofBits .f32 0x3F800000#32 = a := by
  rw [show Ideal.ofBits .f32 0x3F800000#32 = 1 from IdealRules.sign_bit.ideal_onePat .f32, mul_one]

end Cert.Pool

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KerBlocks.lean ====
/-
  The kernel's two result columns after its run, at the extended reals.

  The kernel views the input as 262144 rows of 49 entries (row `r` is sample `r / 2048`, channel `r % 2048`; entry
  `k` is position `(k / 7, k % 7)`), and each of its 64 grid points takes 4096 consecutive rows. For each row it
  writes the row's maximum into one column and, into another, the row's product with a column of ones — the row's
  sum, each term times the word of 1 — times the word nearest 1/49. Every row lies in exactly one point's block,
  so after the run the first column holds every channel's maximum and the second every channel's scaled sum.
-/
import proofs.«148795_g2000706038606328_pallasbulk_548_2_alg».proof.Proof.Gen.KernelIdeal.Frame
import proofs.«148795_g2000706038606328_pallasbulk_548_2_alg».proof.Proof.PoolSpec
import proofs.«148795_g2000706038606328_pallasbulk_548_2_alg».proof.Proof.LibColumns
import proofs.«148795_g2000706038606328_pallasbulk_548_2_alg».proof.Proof.LibDotRows
import Idealize.ShloMosaic.Lib.Pipeline.Value
import Idealize.ShloMosaic.Lib.StableHlo.Run

set_option maxRecDepth 16384

noncomputable section

namespace Cert.KernelIdeal.Pooled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Pool

open Cert.Columns Cert.Hand

variable (m : (ℓ : Loc nD τ sig) → Buf (Elt Ideal) ℓ) (ρ : Dev nD → PrngReg)

/-! ## The body's two payloads, row by row -/

/-- The first payload at row `r`: the fold of `max` from -∞ over the row. -/
theorem rowMax_apply (x0 : Vec Ideal S4096x49 .f32) (r : Fin 4096) (u : Fin 1) :
    k0_pay2 x0 (ix2 r u) = (Finset.univ : Finset (Fin 49)).fold max negInf (fun k => x0 (ix2 r k)) := by
  unfold k0_pay2 k0_pay1
  refine (shapeCast_a_a1_apply (a := 4096) _ _ r u).trans ?_
  refine (multiReduction_maximumf_row (a := 4096) (b := 49) _ _ _ _ _ r).trans ?_
  rw [shapeCast_self]
  rfl

/-- The second payload at row `p`: the row's sum times the word nearest 1/49. -/
theorem rowMean_apply (x0 : Vec Ideal S4096x49 .f32) (p : Fin 4096) (q : Fin 1) :
    k0_pay3 x0 (ix2 p q) = (∑ k : Fin 49, x0 (ix2 p k)) * inv49 := by
  have hsum : ∀ (l : FVec Ideal S4096x49 .f32) (r : FVec Ideal S49x1 .f32),
      matmul dot_S4096x49_S49x1_S4096x1_1_0_0_1_n_n none l r (constant (F := Ideal) S4096x1 .f32 0x00000000#32) (ix2 p q)
        = ∑ k : Fin 49, l (ix2 p k) * r (ix2 k q) := by
    intro l r
    refine (Ideal.matmul_constant_zero_apply _ none l r (ix2 p q)).trans ?_
    dot_rows dot_S4096x49_S49x1_S4096x1_1_0_0_1_n_n S4096x49 S49x1 49
  unfold k0_pay3 k0_pay1
  refine (mulf_apply _ _ _).trans ?_
  refine congrArg (· * inv49) ?_
  refine (hsum _ _).trans ?_
  rw [shapeCast_self]
  exact Finset.sum_congr rfl fun k _ => mul_one_word _

/-! ## The array the region is launched on -/

/-- The [262144, 49] array is the argument re-laid: row `R`, entry `k` is sample `R / 2048`, channel `R % 2048`,
    position `k`. -/
theorem rows_apply (c : Dev nD) (R : Fin 262144) (k : Fin 49) :
    (Gen.V m c main_v0 : S262144x49.Idx → Elt Ideal .f32) (ix2 R k)
      = (m ((c : Thread nD τ).loc main_arg0) : S128x2048x7x7.Idx → Elt Ideal .f32)
          (cell ⟨R.val / 2048, by have := R.isLt; omega⟩ ⟨R.val % 2048, by omega⟩ k) := by
  have e : (Gen.V m c main_v0 : S262144x49.Idx → Elt Ideal .f32)
      = shapeCast S262144x49 (m ((c : Thread nD τ).loc main_arg0) : S128x2048x7x7.Idx → Elt Ideal .f32) shapeCasts_S128x2048x7x7_S262144x49 := by
    show StableHlo.after hostOps0 (fun b => m (c, b)) (Proc.devRef .tc main_v0) = _
    after_results
    rfl
  rw [e]
  refine shapeCast_apply (s := S128x2048x7x7) (t := S262144x49) _ _ (ix2 R k) (cell _ _ k) ?_
  refine (Shape.rowMajor_val_four (d := ![128, 2048, 7, 7]) _).trans
    (Eq.trans ?_ (Shape.rowMajor_val_two (d := ![262144, 49]) _).symm)
  show (((R.val / 2048) * 2048 + R.val % 2048) * 7 + k.val / 7) * 7 + k.val % 7 = R.val * 49 + k.val
  have := k.isLt
  omega

/-! ## What each point writes back -/

theorem hz2 : (![0, 0] : Fin 2 → Nat) = fun _ => 0 := funext fun a => by fin_cases a <;> rfl

/-- Point `t`'s blocks start at row `4096 t` of their arrays. Decided over the 64 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every channel's maximum as a column over the 262144 rows, and every channel's scaled sum. -/
def colMax (x : SX.Idx → EReal) : S262144x1.Idx → Elt Ideal .f32 := fun i =>
  chanMax x ⟨(i 0).val / 2048, by have : (i 0).val < 262144 := (i 0).isLt; omega⟩ ⟨(i 0).val % 2048, by omega⟩
def colMean (x : SX.Idx → EReal) : S262144x1.Idx → Elt Ideal .f32 := fun i =>
  chanMean x ⟨(i 0).val / 2048, by have : (i 0).val < 262144 := (i 0).isLt; omega⟩ ⟨(i 0).val % 2048, by omega⟩

/-- Row `r` of point `t`'s input block is row `4096 t + r` of the array. -/
theorem iblk_apply (c : Dev nD) (t : Fin cfg0.N) (r : Fin 4096) (k : Fin 49) :
    Gen.iblk m c 0 t (ix2 r k)
      = (m ((c : Thread nD τ).loc main_arg0) : S128x2048x7x7.Idx → Elt Ideal .f32)
          (cell ⟨(t.val * 4096 + r.val) / 2048, by have : t.val < 64 := t.isLt; have := r.isLt; omega⟩ ⟨(t.val * 4096 + r.val) % 2048, by omega⟩ k) := by
  obtain ⟨e0, e1, -⟩ := idx_facts t
  have ht : t.val < 64 := t.isLt
  have hr := r.isLt
  have hk := k.isLt
  refine Eq.trans ?_ (rows_apply m c ⟨t.val * 4096 + r.val, by omega⟩ k)
  show Gen.V m c main_v0 (((cfg0.win 0).blk t).view.emb (ix2 r k)) = Gen.V m c main_v0 (ix2 _ k)
  refine congrArg (Gen.V m c main_v0) (funext fun a => Fin.ext ?_)
  match a with
  | ⟨0, _⟩ => show win0_0.index t (0 : Fin 2) * 4096 + 1 * r.val = t.val * 4096 + r.val; omega
  | ⟨1, _⟩ => show win0_0.index t (1 : Fin 2) * 49 + 1 * k.val = k.val; omega

/-- What point `t` writes back into the first column is its block of `colMax`, -/
theorem flushed_max (c : Dev nD) (t : Fin cfg0.N) :
    (Gen.dats m 0 c).flushed 1 t
      = ((cfg0.win 1).blk t).view.read (Elt Ideal) (colMax (m ((c : Thread nD τ).loc main_arg0))) := by
  show (cfg0.win 1).cut (grid0.coords t) ((Gen.dats m 0 c).after 1 t) = _
  rw [Gen.after0_1]
  unfold Gen.out0_1
  rw [View.canon_unit_zero hz2]
  simp only [View.ld_unit_zero (S := S4096x49) hz2]
  obtain ⟨-, -, e2, e3, -⟩ := idx_facts t
  funext j
  obtain ⟨r, u, rfl⟩ : ∃ (r : Fin 4096) (u : Fin 1), j = ix2 r u := ⟨j 0, j 1, eq_ix2 j⟩
  refine (rowMax_apply (Gen.iblk m c 0 t) r u).trans ?_
  show _ = colMax _ (((cfg0.win 1).blk t).view.emb (ix2 r u))
  unfold colMax chanMax
  have hrow : ((((cfg0.win 1).blk t).view.emb (ix2 r u)) 0).val = t.val * 4096 + r.val := by
    show win0_1.index t (0 : Fin 2) * 4096 + 1 * r.val = _; omega
  simp only [iblk_apply, hrow]

/-- and into the second column its block of `colMean`. -/
theorem flushed_mean (c : Dev nD) (t : Fin cfg0.N) :
    (Gen.dats m 0 c).flushed 2 t
      = ((cfg0.win 2).blk t).view.read (Elt Ideal) (colMean (m ((c : Thread nD τ).loc main_arg0))) := by
  show (cfg0.win 2).cut (grid0.coords t) ((Gen.dats m 0 c).after 2 t) = _
  rw [Gen.after0_2]
  unfold Gen.out0_2
  rw [View.canon_unit_zero hz2]
  simp only [View.ld_unit_zero (S := S4096x49) hz2]
  obtain ⟨-, -, -, -, e4, e5⟩ := idx_facts t
  funext j
  obtain ⟨r, u, rfl⟩ : ∃ (r : Fin 4096) (u : Fin 1), j = ix2 r u := ⟨j 0, j 1, eq_ix2 j⟩
  refine (rowMean_apply (Gen.iblk m c 0 t) r u).trans ?_
  show _ = colMean _ (((cfg0.win 2).blk t).view.emb (ix2 r u))
  unfold colMean chanMean
  have hrow : ((((cfg0.win 2).blk t).view.emb (ix2 r u)) 0).val = t.val * 4096 + r.val := by
    show win0_2.index t (0 : Fin 2) * 4096 + 1 * r.val = _; omega
  simp only [iblk_apply, hrow]

/-! ## The columns after the run -/

/-- Row `R` of a column is in the block of point `R / 4096`. -/
theorem cover_max (i : S262144x1.Idx) : ∃ t : Fin cfg0.N, (cfg0.win 1).flush t = true ∧ i ∈ ((cfg0.win 1).blk t).view.set := by
  have hi0 : (i 0).val < 262144 := (i 0).isLt
  have hi1 : (i 1).val < 1 := (i 1).isLt
  obtain ⟨t, ht⟩ : ∃ t : Fin cfg0.N, t.val = (i 0).val / 4096 := ⟨⟨(i 0).val / 4096, by show _ < 64; omega⟩, rfl⟩
  refine ⟨t, flush0_1 t, ?_⟩
  obtain ⟨-, -, e2, e3, -⟩ := idx_facts t
  show i ∈ ((View.whole main_v1_0).slice (win0_1.rect t)).set
  rw [View.set_slice_whole, Rect.mem_set_unit]
  intro a
  match a with
  | ⟨0, _⟩ =>
    show win0_1.index t (0 : Fin 2) * 4096 ≤ (i 0).val ∧ (i 0).val < win0_1.index t (0 : Fin 2) * 4096 + 4096
    omega
  | ⟨1, _⟩ =>
    show win0_1.index t (1 : Fin 2) * 1 ≤ (i 1).val ∧ (i 1).val < win0_1.index t (1 : Fin 2) * 1 + 1
    omega
theorem cover_mean (i : S262144x1.Idx) : ∃ t : Fin cfg0.N, (cfg0.win 2).flush t = true ∧ i ∈ ((cfg0.win 2).blk t).view.set := by
  have hi0 : (i 0).val < 262144 := (i 0).isLt
  have hi1 : (i 1).val < 1 := (i 1).isLt
  obtain ⟨t, ht⟩ : ∃ t : Fin cfg0.N, t.val = (i 0).val / 4096 := ⟨⟨(i 0).val / 4096, by show _ < 64; omega⟩, rfl⟩
  refine ⟨t, flush0_2 t, ?_⟩
  obtain ⟨-, -, -, -, e4, e5⟩ := idx_facts t
  show i ∈ ((View.whole main_v1_1).slice (win0_2.rect t)).set
  rw [View.set_slice_whole, Rect.mem_set_unit]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 1 ≤ (i 1).val ∧ (i 1).val < win0_2.index t (1 : Fin 2) * 1 + 1
    omega

/-- The first column ends at every channel's maximum, the second at every channel's scaled sum. -/
theorem final_max (c : Dev nD) : (Gen.dats m 0 c).arrAt 1 cfg0.N = colMax (m ((c : Thread nD τ).loc main_arg0)) :=
  (Gen.dats m 0 c).arrAt_eq_of_cover 1 _ (fun t _ => flushed_max m c t) cover_max
theorem final_mean (c : Dev nD) : (Gen.dats m 0 c).arrAt 2 cfg0.N = colMean (m ((c : Thread nD τ).loc main_arg0)) :=
  (Gen.dats m 0 c).arrAt_eq_of_cover 2 _ (fun t _ => flushed_mean m c t) cover_mean

end Cert.KernelIdeal.Pooled

end
-- ==== Proof.KerValue.lean ====
/-
  The kernel's result at the extended reals: the pooled array `Pool.pooled` of the argument.

  After the region the two columns of 262144 rows hold every channel's maximum and every channel's scaled sum
  (row `R` is sample `R / 2048`, channel `R % 2048`). The lines after the region re-lay each column as [128, 2048]
  (entry `(n, j)` is row `2048 n + j`), join the two along the channel axis, and re-lay the [128, 4096] array as
  [128, 4096, 1, 1]: entry `(n, j, 0, 0)` is channel `j`'s maximum for `j < 2048`, channel `j - 2048`'s scaled sum
  otherwise.
-/
import proofs.«148795_g2000706038606328_pallasbulk_548_2_alg».proof.Proof.KerBlocks

set_option maxRecDepth 16384

noncomputable section

namespace Cert.KernelIdeal.Pooled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Pool

variable (m : (ℓ : Loc nD τ sig) → Buf (Elt Ideal) ℓ) (ρ : Dev nD → PrngReg)

/-- A column re-laid as [128, 2048] reads, at `(n, j)`, row `2048 n + j`. -/
theorem relay_col (v : S262144x1.Idx → Elt Ideal .f32) (n : Fin 128) (j : Fin 2048) :
    shapeCast S128x2048 v shapeCasts_S262144x1_S128x2048 (ix2 n j)
      = v (ix2 (⟨n.val * 2048 + j.val, by have := n.isLt; have := j.isLt; omega⟩ : Fin 262144) (0 : Fin 1)) := by
  refine shapeCast_apply (s := S262144x1) (t := S128x2048) v _ (ix2 n j) _ ?_
  refine (Shape.rowMajor_val_two (d := ![262144, 1]) _).trans
    (Eq.trans ?_ (Shape.rowMajor_val_two (d := ![128, 2048]) _).symm)
  show (n.val * 2048 + j.val) * 1 + 0 = n.val * 2048 + j.val
  omega

/-- The lines after the region, applied to the two columns, give the pooled array. -/
theorem tail_eq (x : SX.Idx → EReal) :
    shapeCast S128x4096x1x1
        (concatenate S128x4096 1 [⟨S128x2048, shapeCast S128x2048 (colMax x) shapeCasts_S262144x1_S128x2048⟩,
          ⟨S128x2048, shapeCast S128x2048 (colMean x) shapeCasts_S262144x1_S128x2048⟩]
          concatenates_S128x2048_S128x2048_S128x4096_d1)
        shapeCasts_S128x4096_S128x4096x1x1
      = pooled x := by
  funext i
  have h0 : (i 0).val < 128 := (i 0).isLt
  have h1 : (i 1).val < 4096 := (i 1).isLt
  have h2 : (i 2).val < 1 := (i 2).isLt
  have h3 : (i 3).val < 1 := (i 3).isLt
  refine (shapeCast_apply (s := S128x4096) (t := S128x4096x1x1) _ _ i
    (ix2 (⟨(i 0).val, h0⟩ : Fin 128) (⟨(i 1).val, h1⟩ : Fin 4096)) ?_).trans ?_
  · refine (Shape.rowMajor_val_two (d := ![128, 4096]) _).trans
      (Eq.trans ?_ (Shape.rowMajor_val_four (d := ![128, 4096, 1, 1]) _).symm)
    show (i 0).val * 4096 + (i 1).val = (((i 0).val * 4096 + (i 1).val) * 1 + (i 2).val) * 1 + (i 3).val
    omega
  · unfold pooled
    by_cases hlt : (i 1).val < 2048
    · rw [dif_pos hlt]
      refine (concatenate_pair_apply_left (t := S128x4096) (s₁ := S128x2048) (s₂ := S128x2048) 1 _ _ _ _ rfl
        (ix2 (⟨(i 0).val, h0⟩ : Fin 128) (⟨(i 1).val, hlt⟩ : Fin 2048)) (fun b => by
          match b with
          | ⟨0, _⟩ => rfl
          | ⟨1, _⟩ => rfl)).trans ?_
      refine (relay_col _ _ _).trans ?_
      unfold colMax
      exact chanMax_congr x (show ((i 0).val * 2048 + (i 1).val) / 2048 = (i 0).val by omega)
        (show ((i 0).val * 2048 + (i 1).val) % 2048 = (i 1).val by omega)
    · rw [dif_neg hlt]
      refine (concatenate_pair_apply_right (t := S128x4096) (s₁ := S128x2048) (s₂ := S128x2048) 1 _ _ _ _ rfl rfl
        (ix2 (⟨(i 0).val, h0⟩ : Fin 128) (⟨(i 1).val - 2048, by omega⟩ : Fin 2048)) (fun b hb => by
          match b with
          | ⟨0, _⟩ => rfl
          | ⟨1, _⟩ => exact absurd rfl hb) (by show (i 1).val - 2048 + 2048 = (i 1).val; omega)).trans ?_
      refine (relay_col _ _ _).trans ?_
      unfold colMean
      exact chanMean_congr x (show ((i 0).val * 2048 + ((i 1).val - 2048)) / 2048 = (i 0).val by omega)
        (show ((i 0).val * 2048 + ((i 1).val - 2048)) % 2048 = (i 1).val - 2048 by omega)

/-- The result buffer after the lines that follow the region. -/
theorem result_eq (c : Dev nD) :
    Pipeline.afterTail₀ cfgs (Gen.dats m) 0 (Gen.V0 m) [hostOps1] c main_v5 = pooled (m ((c : Thread nD τ).loc main_arg0)) := by
  unfold Pipeline.afterTail₀
  show StableHlo.after hostOps1 _ (Proc.devRef .tc main_v5) = _
  after_results
  rw [show Pipeline.withArrays spec0 c (Gen.V0 m c) (fun w => (Gen.dats m 0 c).arrAt w cfg0.N) (Proc.devRef .tc main_v1_0)
      = colMax (m ((c : Thread nD τ).loc main_arg0)) from
    (Pipeline.withArrays_arr spec0 launch0.win.arr_inj c _ _ 1).trans (final_max m c),
    show Pipeline.withArrays spec0 c (Gen.V0 m c) (fun w => (Gen.dats m 0 c).arrAt w cfg0.N) (Proc.devRef .tc main_v1_1)
      = colMean (m ((c : Thread nD τ).loc main_arg0)) from
    (Pipeline.withArrays_arr spec0 launch0.win.arr_inj c _ _ 2).trans (final_mean m c)]
  exact tail_eq _

/-- THE KERNEL'S RUN: every weakly fair execution terminates with the result at the pooled array of the argument
    and the argument unchanged. -/
theorem run : θ_run defs (onTc (τ := τ) (main (F := Ideal))) ⟨m, fun _ => 0, ρ⟩ (fun r => ∀ c : Dev nD,
      r.2.mem ((c.tc : Thread nD τ).loc main_v5) = pooled (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v5 (Pipeline.mem_restRefs_of main_v5 (by decide) (by decide))).trans (result_eq m c),
     ((h c).2 main_arg0 (Pipeline.mem_restRefs_of main_arg0 (by decide) (by decide))).trans (Gen.W_main_arg0 m (Gen.dats m) c)⟩)
    (Gen.run_main m ρ)

end Cert.KernelIdeal.Pooled

end
-- ==== Proof.RefBodyRun.lean ====
/-
  The reference's pooling body, run once on whole staging memrefs.

  At every grid point the body (the grid's last axis has one step, so both of its guarded parts run) resets its two
  scratch accumulators to -∞ and 0, folds the staged [5, 2048, 49] block into them along the last axis (a running
  maximum and a running sum), and stores the maximum into plane 0 and the sum times the literal f32(1/49) into
  plane 1 of the staged [5, 2, 2048] output block. The run below finds the output's two stored pieces; the
  scratch accumulators enter and leave at contents nothing names.
-/
import proofs.«148795_g2000706038606328_pallasbulk_548_2_alg».proof.Proof.Gen.ReferenceIdeal.Frame
import proofs.«148795_g2000706038606328_pallasbulk_548_2_alg».proof.Proof.Gen.ReferenceIdeal.Skeleton

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first guard of the body (the reduction axis's step is the first one), from the grid coordinates. -/
abbrev firstStep (i : grid0.Coords) : Prop :=
  (Scalar.cmpi .ne (Scalar.extui (Scalar.cmpi .eq (BitVec.ofNat 32 (i 2).val) 0#32)) 0#32) = 1#1
/-- The second guard (the step is the last one). -/
abbrev lastStep (i : grid0.Coords) : Prop := k0_cond2 i = 1#1

/-- The reduction axis has one step: every point is a first step, -/
theorem firstStep_all : ∀ t : Fin cfg0.N, firstStep (grid0.coords t) :=
  (by decide +kernel : ∀ t : Fin grid0.N, firstStep (grid0.coords t))
/-- and a last one. -/
theorem lastStep_all : ∀ t : Fin cfg0.N, lastStep (grid0.coords t) :=
  (by decide +kernel : ∀ t : Fin grid0.N, lastStep (grid0.coords t))

set_option maxHeartbeats 4000000 in
/-- The body on whole memrefs — the input's at contents `x0`, the output's and the two accumulators' at anything —
    runs to the continuation with the input's as it was and the output's and the accumulators' with the pieces
    `L`, `Lmax`, `Lsum` written (the witnesses the run finds). -/
noncomputable def bodyRun (c : Dev nD) (i : grid0.Coords)
    (arg3 : Memref sig .tc .vmem S5x2048x49 .f32) (harg3 : arg3.IsWhole) (arg4 : Memref sig .tc .vmem S5x2x2048 .f32) (harg4 : arg4.IsWhole)
    (arg5 : Memref sig .tc .vmem S5x2048 .f32) (harg5 : arg5.IsWhole) (arg6 : Memref sig .tc .vmem S5x2048 .f32) (harg6 : arg6.IsWhole)
    (hc0 : firstStep i) (hc1 : lastStep i) (x0 : Vec F S5x2048x49 .f32) :
    Σ' (L : List (View.Piece (Elt F) S5x2x2048 .f32)) (Lmax : List (View.Piece (Elt F) S5x2048 .f32)), { Lsum : List (View.Piece (Elt F) S5x2048 .f32) //
      ∀ (E : Set ℕ) (K : PUnit → sProp 𝕄),
        iprop(owns (c : Thread nD τ) arg3 fullShare x0 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg3 fullShare x0
                ∗ (∃ f, arg4.view.loc (c : Thread nD τ) ↦[arg4.view.set]{fullShare} arg4.view.writes (Elt F) f L)
                ∗ (∃ f, arg5.view.loc (c : Thread nD τ) ↦[arg5.view.set]{fullShare} arg5.view.writes (Elt F) f Lmax)
                ∗ (∃ f, arg6.view.loc (c : Thread nD τ) ↦[arg6.view.set]{fullShare} arg6.view.writes (Elt F) f Lsum)) -∗ K ⟨⟩))
          ⊢ wp frame (wpE (defs₀ (F := F)) Variants.none c none) E (cc0__concat_pool_kernel i arg3 harg3 arg4 harg4 arg5 harg5 arg6 harg6) K } := by
  refine ⟨?_, ?_, ?_, fun E K => ?run⟩
  case run =>
    simp only [cc0__concat_pool_kernel_eq_skeleton]; unfold cc0__concat_pool_kernel_skel
    unfold owns
    iintro ⟨⟨%f0, %hf0, H0⟩, ⟨%d1, %f1, -, H1⟩, ⟨%d5, %f5, -, H5⟩, ⟨%d6, %f6, -, H6⟩, Hk⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [H5]; · iexists _; iexact H5
    iexists _; iexact H6

end Cert.ReferenceIdeal.Body

end
-- ==== Proof.RefBodyOut.lean ====
/-
  What the reference's pooling body leaves in its staged output block, as a function of the staged input block.

  The run stores two pieces into the [5, 2, 2048] block: plane 0 takes the running maximum read back from its
  accumulator, plane 1 the running sum read back from its accumulator times the literal. Each accumulator was
  reset and then updated once through whole-buffer stores, so what is read back is the update's payload over the
  reset's payload; the staged input is read whole. Hence the block is the canonical contents of two pieces whose
  payloads are the body's arithmetic applied to the input block alone (`blockPool`).
-/
import proofs.«148795_g2000706038606328_pallasbulk_548_2_alg».proof.Proof.RefBodyRun
import Idealize.ShloMosaic.Lib.Pipeline.Value

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- One staging buffer of the output window, through which its contents are stated (the choice does not matter). -/
abbrev VO : View sig .tc .vmem S5x2x2048 .f32 := (Memref.whole cc0_stg1_0 : Memref sig .tc .vmem S5x2x2048 .f32).view

/-- The two stored pieces are the block's two planes: they tile it, so they cover it. -/
theorem cover (c : Dev nD) (i : grid0.Coords) (arg3 : Memref sig .tc .vmem S5x2048x49 .f32) (harg3 : arg3.IsWhole) (arg4 : Memref sig .tc .vmem S5x2x2048 .f32) (harg4 : arg4.IsWhole)
    (arg5 : Memref sig .tc .vmem S5x2048 .f32) (harg5 : arg5.IsWhole) (arg6 : Memref sig .tc .vmem S5x2048 .f32) (harg6 : arg6.IsWhole)
    (hc0 : firstStep i) (hc1 : lastStep i) (x0 : Vec F S5x2048x49 .f32) (y : S5x2x2048.Idx) :
    ∃ pc ∈ (bodyRun c i arg3 harg3 arg4 harg4 arg5 harg5 arg6 harg6 hc0 hc1 x0).1, y ∈ pc.1.set :=
  View.cover_of_tiledL (bodyRun c i arg3 harg3 arg4 harg4 arg5 harg5 arg6 harg6 hc0 hc1 x0).1 S5x1x2048.size (by sl_kernel_rfl) y

/-- What the run leaves in the output's staging buffer: its pieces read back. -/
def outOf (c : Dev nD) (i : grid0.Coords) (arg3 : Memref sig .tc .vmem S5x2048x49 .f32) (harg3 : arg3.IsWhole) (arg4 : Memref sig .tc .vmem S5x2x2048 .f32) (harg4 : arg4.IsWhole)
    (arg5 : Memref sig .tc .vmem S5x2048 .f32) (harg5 : arg5.IsWhole) (arg6 : Memref sig .tc .vmem S5x2048 .f32) (harg6 : arg6.IsWhole)
    (hc0 : firstStep i) (hc1 : lastStep i) (x0 : Vec F S5x2048x49 .f32) : Vec F S5x2x2048 .f32 :=
  VO.read (Elt F) (VO.writes (Elt F) VO.junk (bodyRun c i arg3 harg3 arg4 harg4 arg5 harg5 arg6 harg6 hc0 hc1 x0).1)

/-- Plane 0's rectangle of the block, and plane 1's. -/
abbrev plane0 : Rect S5x2x2048 := Rect.unit (s := S5x2x2048) ![0, 0, 0] S5x1x2048.size inb_S5x2x2048_S5x1x2048_0_0_0
abbrev plane1 : Rect S5x2x2048 := Rect.unit (s := S5x2x2048) ![0, 1, 0] S5x1x2048.size inb_S5x2x2048_S5x1x2048_0_1_0

/-- The output block as the body's arithmetic of the input block: plane 1 the sum accumulator's update of its reset
    value, scaled; plane 0 the maximum accumulator's update of its reset value. -/
def blockPool (x0 : Vec F S5x2048x49 .f32) : Vec F S5x2x2048 .f32 :=
  View.canon [⟨plane1, k0_pay7 (k0_pay5 x0 (k0_pay2 (F := F)))⟩, ⟨plane0, k0_pay6 (k0_pay4 x0 (k0_pay1 (F := F)))⟩]

theorem outOf_eq (c : Dev nD) (i : grid0.Coords) (arg3 : Memref sig .tc .vmem S5x2048x49 .f32) (harg3 : arg3.IsWhole) (arg4 : Memref sig .tc .vmem S5x2x2048 .f32) (harg4 : arg4.IsWhole)
    (arg5 : Memref sig .tc .vmem S5x2048 .f32) (harg5 : arg5.IsWhole) (arg6 : Memref sig .tc .vmem S5x2048 .f32) (harg6 : arg6.IsWhole)
    (hc0 : firstStep i) (hc1 : lastStep i) (x0 : Vec F S5x2048x49 .f32) :
    outOf c i arg3 harg3 arg4 harg4 arg5 harg5 arg6 harg6 hc0 hc1 x0 = blockPool x0 := by
  have hz3 : (![0, 0, 0] : Fin 3 → Nat) = fun _ => 0 := funext fun a => by fin_cases a <;> rfl
  unfold outOf
  rw [View.read_writes_eq_canon _ _ _ (cover c i arg3 harg3 arg4 harg4 arg5 harg5 arg6 harg6 hc0 hc1 x0)]
  unfold bodyRun
  dsimp only
  sl_unfold_words
  simp only [View.readCov_cons_toLoadRect, View.readAt_eq_ld, harg3.read_unread, View.ld_unit_zero (S := S5x2048x49) hz3]
  rfl

end Cert.ReferenceIdeal.Body

end
-- ==== Proof.LibLastAxis3.lean ====
/-
  A rank-3 array `[a, b, c]` reduced along its last axis, and a matrix `[a, b]` given a middle unit axis, read at
  an index given by coordinates.

  • The reduced array's index `(i, j)` with coordinate `k` put back on the reduced axis is `(i, j, k)` (`lift_last`).
  • A kernel's maximum reduction along the last axis, at the extended reals, read at `(i, j)` is the fold of `max`
    from the accumulator's value over the `c` entries `(i, j, ·)` (`multiReduction_maximumf_last`); `max` commutes
    and associates there, so the order of the fold does not matter.
  • A kernel's sum reduction along the last axis read at `(i, j)` is the sum over `k` of the entries `(i, j, k)`
    (`multiReduction_add_last`).
  • A matrix `[a, b]` cast to `[a, 1, b]` reads, at `(i, u, j)`, the matrix at `(i, j)`: both indices have row-major
    position `i * b + j` (`shapeCast_ab_a1b_apply`).
-/
import Idealize.ShloMosaic.Lib.ValueIdx
import Idealize.ShloMosaic.Lib.Pipeline.Value
import Idealize.ShloMosaic.PureOps.Ideal.Laws
import Idealize.ShloMosaic.PureOps.Reduce

noncomputable section

namespace Cert.LastAxis3

open Idealize.ShloMosaic Idealize.ShloMosaic.ValueIdx

variable {α : Type}

/-- Index `(i, j)` of the reduced array with coordinate `k` put back on the reduced (last) axis is `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- A kernel's maximum reduction of `[a, b, c]` along its last axis, at the extended reals, read at `(i, j)`: the fold
    of `max` from the accumulator's value over the entries `(i, j, k)`, `k < c`. -/
theorem multiReduction_maximumf_last {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.maximumf.neutral φ hφ) (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  rw [multiReduction_maximumf_eq_fold]
  refine (h.fold_filter_drop_single _ _ src (ix2 i j)).trans ?_
  exact congrArg (fun f => Finset.fold max (Ideal.ofBits φ acc) f (Finset.univ : Finset (Fin c)))
    (funext fun k => congrArg src (lift_last h i j k))

/-- A kernel's sum reduction of `[a, b, c]` along its last axis, at the extended reals, read at `(i, j)`: the sum over
    `k < c` of the entries `(i, j, k)`. -/
theorem multiReduction_add_last {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- A matrix `[a, b]` cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp)

end Cert.LastAxis3

end
-- ==== Proof.LibBlockParts.lean ====
/-
  Two facts about parts of a block.

  • A block written in two pieces (the later piece first in the list) reads, under the later piece, that piece's
    payload (`canon_two_first`), and under the earlier piece off the later one, the earlier piece's payload
    (`canon_two_second`): a block stored plane by plane, half by half.
  • A pipelined window whose blocks may overhang their array moves, at a grid point, only the leading part of the
    block that lies inside the array. Two contents of the block that agree on that part (`Window.cut`) agree at
    every index whose coordinates lie inside it (`eq_of_cut_eq`): what a row-wise computation needs to ignore the
    rows past the array's end.
-/
import Idealize.ShloMosaic.Lib.Pipeline
import Idealize.ShloMosaic.Lib.Pipeline.FrameBody

noncomputable section

namespace Cert.BlockParts

open Idealize.ShloMosaic

/-- Under the later of two pieces the block reads that piece's payload. -/
theorem canon_two_first {Val : EltTy → Type} [∀ e, Nonempty (Val e)] {s : Shape} {e : EltTy}
    (p q : View.Piece Val s e) (x : p.1.shape.Idx) : View.canon [p, q] (p.1.emb x) = p.2 x := by
  obtain ⟨r, w⟩ := p
  exact View.canon_cons_emb r w _ x

/-- Under the earlier of two pieces, off the later one, the block reads the earlier piece's payload. -/
theorem canon_two_second {Val : EltTy → Type} [∀ e, Nonempty (Val e)] {s : Shape} {e : EltTy}
    (p q : View.Piece Val s e) (x : q.1.shape.Idx) (h : q.1.emb x ∉ p.1.set) :
    View.canon [p, q] (q.1.emb x) = q.2 x := by
  refine (View.canon_cons_of_not_mem p [q] h).trans ?_
  obtain ⟨r, w⟩ := q
  exact View.canon_cons_emb r w [] x

/-- Contents of a block that agree on the part a transfer moves agree at every index inside that part. -/
theorem eq_of_cut_eq {sig : RefSig} {G : Pipeline.Grid} (w : Pipeline.Window sig G) {α : Type} (i : G.Coords)
    {X Y : w.block.Idx → α} (h : w.cut i X = w.cut i Y) (y : w.block.Idx) (hy : ∀ a, (y a).val < w.xsize i a) :
    X y = Y y :=
  congrFun h (fun a => ⟨(y a).val, hy a⟩)

end Cert.BlockParts

end
-- ==== Proof.RefBlock.lean ====
/-
  The reference body's output block at the extended reals, entry by entry.

  From a staged input block `X` of shape [5, 2048, 49] the body leaves the block [5, 2, 2048] whose entry
  `(b, 0, ch)` is the maximum of `X (b, ch, ·)` and whose entry `(b, 1, ch)` is the sum of `X (b, ch, ·)` times the
  word nearest 1/49 (`blockPoolI`). The running maximum is `max` of the reset value -∞ with a fold of `max` that
  already starts from -∞, and the running sum is the reset value 0 plus the row's sum: both reset values drop out.
  Row `b` of the output depends on row `b` of the input only, which is what lets rows past an array's end be ignored.
-/
import proofs.«148795_g2000706038606328_pallasbulk_548_2_alg».proof.Proof.RefBodyOut
import proofs.«148795_g2000706038606328_pallasbulk_548_2_alg».proof.Proof.PoolSpec
import proofs.«148795_g2000706038606328_pallasbulk_548_2_alg».proof.Proof.LibLastAxis3
import proofs.«148795_g2000706038606328_pallasbulk_548_2_alg».proof.Proof.LibBlockParts

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Pool Cert.LastAxis3 Cert.BlockParts

/-- Entry by entry: maxima of the input block's rows in plane 0, scaled sums in plane 1. -/
def blockPoolI (X : Vec Ideal S5x2048x49 .f32) : Vec Ideal S5x2x2048 .f32 := fun y =>
  if (y 1).val = 0 then (Finset.univ : Finset (Fin 49)).fold max negInf (fun k => X (ix3 (y 0) (y 2) k))
  else (∑ k : Fin 49, X (ix3 (y 0) (y 2) k)) * inv49

/-- The reset value of the maximum accumulator is the word of -∞ everywhere, the sum accumulator's the word of 0. -/
theorem resetMax_apply (b : Fin 5) (ch : Fin 2048) : k0_pay1 (F := Ideal) (ix2 b ch) = negInf := by
  unfold k0_pay1; rw [shapeCast_self]; rfl
theorem resetSum_apply (b : Fin 5) (ch : Fin 2048) : k0_pay2 (F := Ideal) (ix2 b ch) = Ideal.ofBits .f32 0x00000000#32 := by
  unfold k0_pay2; rw [shapeCast_self]; rfl

/-- The maximum accumulator's update at `(b, ch)`: `max` of what it held with the row's maximum. -/
theorem updMax_apply (X : Vec Ideal S5x2048x49 .f32) (v : Vec Ideal S5x2048 .f32) (b : Fin 5) (ch : Fin 2048) :
    k0_pay4 X v (ix2 b ch)
      = max (v (ix2 b ch)) ((Finset.univ : Finset (Fin 49)).fold max negInf (fun k => X (ix3 b ch k))) := by
  unfold k0_pay4 k0_pay3
  rw [shapeCast_self, shapeCast_self, maximumf_apply]
  exact congrArg (max (v (ix2 b ch))) (multiReduction_maximumf_last (a := 5) (b := 2048) (c := 49) X _ _ _ _ b ch)

/-- The sum accumulator's update at `(b, ch)`: what it held plus the row's sum. -/
theorem updSum_apply (X : Vec Ideal S5x2048x49 .f32) (v : Vec Ideal S5x2048 .f32) (b : Fin 5) (ch : Fin 2048) :
    k0_pay5 X v (ix2 b ch) = v (ix2 b ch) + ∑ k : Fin 49, X (ix3 b ch k) := by
  unfold k0_pay5 k0_pay3
  rw [shapeCast_self, shapeCast_self, addf_apply]
  exact congrArg (v (ix2 b ch) + ·) (multiReduction_add_last (a := 5) (b := 2048) (c := 49) X _ _ _ _ b ch)

/-- Plane 0's payload is the maximum accumulator laid out as a plane; plane 1's the sum accumulator scaled. -/
theorem planeMax_apply (v : Vec Ideal S5x2048 .f32) (b : Fin 5) (u : Fin 1) (ch : Fin 2048) :
    k0_pay6 v (ix3 b u ch) = v (ix2 b ch) := by
  unfold k0_pay6
  exact shapeCast_ab_a1b_apply (a := 5) (b := 2048) v _ b u ch
theorem planeMean_apply (v : Vec Ideal S5x2048 .f32) (b : Fin 5) (u : Fin 1) (ch : Fin 2048) :
    k0_pay7 v (ix3 b u ch) = v (ix2 b ch) * inv49 := by
  unfold k0_pay7
  exact shapeCast_ab_a1b_apply (a := 5) (b := 2048) _ _ b u ch

/-- Entry `(b, 1, ch)` of the block is plane 1's entry `(b, 0, ch)`, and `(b, 0, ch)` plane 0's. -/
theorem plane1_emb (b : Fin 5) (ch : Fin 2048) :
    plane1.emb (ix3 b (0 : Fin 1) ch : S5x1x2048.Idx) = (ix3 b (1 : Fin 2) ch : S5x2x2048.Idx) := by
  funext a; apply Fin.ext; rw [Rect.emb_apply]
  match a with
  | ⟨0, _⟩ => show 0 + 1 * b.val = b.val; omega
  | ⟨1, _⟩ => rfl
  | ⟨2, _⟩ => show 0 + 1 * ch.val = ch.val; omega
theorem plane0_emb (b : Fin 5) (ch : Fin 2048) :
    plane0.emb (ix3 b (0 : Fin 1) ch : S5x1x2048.Idx) = (ix3 b (0 : Fin 2) ch : S5x2x2048.Idx) := by
  funext a; apply Fin.ext; rw [Rect.emb_apply]
  match a with
  | ⟨0, _⟩ => show 0 + 1 * b.val = b.val; omega
  | ⟨1, _⟩ => rfl
  | ⟨2, _⟩ => show 0 + 1 * ch.val = ch.val; omega
theorem not_mem_plane1 (b : Fin 5) (ch : Fin 2048) : (ix3 b (0 : Fin 2) ch : S5x2x2048.Idx) ∉ plane1.set := by
  rw [Rect.mem_set_unit]
  intro h
  have h1 : (1 : ℕ) ≤ 0 := (h (1 : Fin 3)).1
  omega

/-- Plane 0 of the body's block is the maximum accumulator's final contents, plane 1 the sum accumulator's, scaled. -/
theorem blockPool_plane0 (X : Vec Ideal S5x2048x49 .f32) (b : Fin 5) (ch : Fin 2048) :
    blockPool (F := Ideal) X (ix3 b (0 : Fin 2) ch)
      = k0_pay6 (k0_pay4 X (k0_pay1 (F := Ideal))) (ix3 b (0 : Fin 1) ch) := by
  have h := canon_two_second (Val := Elt Ideal) (⟨plane1, k0_pay7 (k0_pay5 X (k0_pay2 (F := Ideal)))⟩ : View.Piece (Elt Ideal) S5x2x2048 .f32)
    ⟨plane0, k0_pay6 (k0_pay4 X (k0_pay1 (F := Ideal)))⟩ (ix3 b (0 : Fin 1) ch)
    (by show plane0.emb _ ∉ plane1.set; rw [plane0_emb]; exact not_mem_plane1 b ch)
  rw [show (⟨plane0, k0_pay6 (k0_pay4 X (k0_pay1 (F := Ideal)))⟩ : View.Piece (Elt Ideal) S5x2x2048 .f32).1.emb (ix3 b (0 : Fin 1) ch)
    = ix3 b (0 : Fin 2) ch from plane0_emb b ch] at h
  exact h
theorem blockPool_plane1 (X : Vec Ideal S5x2048x49 .f32) (b : Fin 5) (ch : Fin 2048) :
    blockPool (F := Ideal) X (ix3 b (1 : Fin 2) ch)
      = k0_pay7 (k0_pay5 X (k0_pay2 (F := Ideal))) (ix3 b (0 : Fin 1) ch) := by
  have h := canon_two_first (Val := Elt Ideal) (⟨plane1, k0_pay7 (k0_pay5 X (k0_pay2 (F := Ideal)))⟩ : View.Piece (Elt Ideal) S5x2x2048 .f32)
    ⟨plane0, k0_pay6 (k0_pay4 X (k0_pay1 (F := Ideal)))⟩ (ix3 b (0 : Fin 1) ch)
  rw [show (⟨plane1, k0_pay7 (k0_pay5 X (k0_pay2 (F := Ideal)))⟩ : View.Piece (Elt Ideal) S5x2x2048 .f32).1.emb (ix3 b (0 : Fin 1) ch)
    = ix3 b (1 : Fin 2) ch from plane1_emb b ch] at h
  exact h

/-- The body's block, entry by entry. -/
theorem blockPool_eq (X : Vec Ideal S5x2048x49 .f32) : blockPool (F := Ideal) X = blockPoolI X := by
  funext y
  obtain ⟨b, p, ch, rfl⟩ : ∃ (b : Fin 5) (p : Fin 2) (ch : Fin 2048), y = ix3 b p ch := ⟨y 0, y 1, y 2, eq_ix3 y⟩
  by_cases hp : p.val = 0
  · obtain rfl : p = 0 := Fin.ext hp
    refine (blockPool_plane0 X b ch).trans ?_
    refine (planeMax_apply _ b 0 ch).trans ?_
    refine (updMax_apply X _ b ch).trans ?_
    rw [resetMax_apply, max_fold_self]
    exact (if_pos rfl).symm
  · obtain rfl : p = 1 := Fin.ext (by have := p.isLt; omega)
    refine (blockPool_plane1 X b ch).trans ?_
    refine (planeMean_apply _ b 0 ch).trans ?_
    rw [updSum_apply X _ b ch, resetSum_apply, zero_word_add]
    exact (if_neg Nat.one_ne_zero).symm

end Cert.ReferenceIdeal.Body

end
-- ==== Proof.RefFrame.lean ====
/-
  The reference program's run at the extended reals: every weakly fair execution terminates without a fault, the
  argument array ends unchanged, and the pooled [128, 2, 2048] array ends at what the write-backs of the 26 grid
  points leave.

  The batch axis of 128 is cut into blocks of 5 samples, so the last block (point 25) overhangs the array by two
  samples: its fetch lands three samples and leaves the other two rows of the staging buffer at words nothing names,
  the body pools all five rows, and the write-back writes the first three back. What is stated of a staging buffer is
  therefore stated on the rows inside the array only. Row `b` of the body's output depends on row `b` of its input
  alone (`blockPoolI`), so the rows that are written back are the pooled rows of the array whatever the other rows
  held. Point `t`'s input block is named `blockIn t`: samples `5t … 5t + 4` of the array, wrapped around past
  the array's end (the wrapped rows are exactly the ones never written back).
-/
import proofs.«148795_g2000706038606328_pallasbulk_548_2_alg».proof.Proof.RefBlock

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Pool Cert.BlockParts

local notation "𝕄" => MT nD τ sig Unit (Elt Ideal) ℕ (UR sig nD τ) ℕ

variable (m : (ℓ : Loc nD τ sig) → Buf (Elt Ideal) ℓ) (ρ : Dev nD → PrngReg)

/-! ## The windows' blocks over the grid -/

/-- Point `t`'s blocks start at sample `5t` and span every channel and position; on the batch axis they hold
    `min 5 (128 - 5t)` samples inside the array. Decided over the 26 points. -/
theorem win_facts : ∀ t : Fin cfg0.N,
    win0_0.index t 0 = t.val ∧ win0_0.index t 1 = 0 ∧ win0_0.index t 2 = 0
    ∧ win0_1.index t 0 = t.val ∧ win0_1.index t 1 = 0 ∧ win0_1.index t 2 = 0
    ∧ win0_0.xsize (grid0.coords t) 0 = min 5 (128 - 5 * t.val) ∧ win0_0.xsize (grid0.coords t) 1 = 2048
    ∧ win0_0.xsize (grid0.coords t) 2 = 49
    ∧ win0_1.xsize (grid0.coords t) 0 = min 5 (128 - 5 * t.val) ∧ win0_1.xsize (grid0.coords t) 1 = 2
    ∧ win0_1.xsize (grid0.coords t) 2 = 2048 :=
  (by decide +kernel : ∀ t : Fin grid0.N, _)

/-- The output window is stored into at every point. -/
theorem live_out : ∀ t : Fin cfg0.N, cfg0.idle 1 (grid0.coords t) = false := by decide +kernel

/-! ## The proof data -/

/-- The [128, 2048, 49] array the region is launched on. -/
abbrev arr3 (c : Dev nD) : S128x2048x49.Idx → Elt Ideal .f32 := Gen.V m c main_v0

/-- Point `t`'s input block: samples `5t + b` (`b < 5`) of the array, wrapped around past its end. -/
def blockIn (c : Dev nD) (t : Fin cfg0.N) : Vec Ideal S5x2048x49 .f32 := fun y =>
  arr3 m c (ix3 (⟨(5 * t.val + (y 0).val) % 128, Nat.mod_lt _ (by decide)⟩ : Fin 128)
    (⟨(y 1).val, (y 1).isLt⟩ : Fin 2048) (⟨(y 2).val, (y 2).isLt⟩ : Fin 49))

/-- The proof data: the arrays as the region finds them; after the body the input's buffer at `blockIn` and the
    output's at its pooling (both meant on the rows inside the array); the invariant the scratch accumulators and
    the generator register at anything (the accumulators are reset at every point); nothing owed; full shares. -/
def dats (_ : Fin 1) (c : Dev nD) : Dat τ (Elt Ideal) Unit ℕ (UR sig nD τ) ℕ cfg0 c where
  A w := Gen.V m c (Pipeline.arrRef spec0 w)
  after w t := match w with
    | ⟨0, _⟩ => blockIn m c t
    | ⟨1, _⟩ => blockPoolI (blockIn m c t)
  Φ _ := Pipeline.ΦA spec0 c
  q _ := fullShare
  owed _ := 0

theorem A_eq (c : Dev nD) (w : Fin cfg0.W) : (dats m 0 c).A w = Gen.V m c (Pipeline.arrRef spec0 w) := by
  dsimp only [dats]
theorem after_in (c : Dev nD) (t : Fin cfg0.N) : (dats m 0 c).after 0 t = blockIn m c t := by dsimp only [dats]
theorem after_out (c : Dev nD) (t : Fin cfg0.N) : (dats m 0 c).after 1 t = blockPoolI (blockIn m c t) := by dsimp only [dats]

/-- The input's buffer as the body finds it: just fetched — the array's block on the rows inside the array, `d` on
    the others. -/
theorem before_in (c : Dev nD) (t : Fin cfg0.N) (d) :
    (dats m 0 c).before 0 t d = win0_0.fill (grid0.coords t) d (Gen.iblk m c 0 t) := by
  rw [(dats m 0 c).before_fetched 0 t (fetch0_0 t) d]; rfl

/-- The output's buffer as the body finds it: anything (it was written back at the point before). -/
theorem before_out (c : Dev nD) (t : Fin cfg0.N) (d) : (dats m 0 c).before 1 t d = d :=
  (dats m 0 c).before_out_reset 1 rfl t
    (by by_cases h : t.val = 0
        · exact .inl h
        · exact .inr ⟨h, flush0_1 _⟩) d

/-- On the rows inside the array the fetched block is `blockIn`: sample `5t + b` is below 128 there. -/
theorem cut_blockIn (c : Dev nD) (t : Fin cfg0.N) :
    win0_0.cut (grid0.coords t) (blockIn m c t) = Gen.iblk m c 0 t := by
  obtain ⟨hi0, hi1, hi2, -, -, -, hx0, hx1, hx2, -⟩ := win_facts t
  funext j
  have hj0 : (j 0).val < min 5 (128 - 5 * t.val) := hx0 ▸ (j 0).isLt
  show arr3 m c _ = arr3 m c (((cfg0.win 0).blk t).view.emb j)
  refine congrArg (arr3 m c) (funext fun a => Fin.ext ?_)
  match a with
  | ⟨0, _⟩ =>
    show (5 * t.val + (j 0).val) % 128 = win0_0.index t 0 * 5 + 1 * (j 0).val
    rw [hi0, Nat.mod_eq_of_lt (by omega)]; omega
  | ⟨1, _⟩ =>
    show (j 1).val = win0_0.index t 1 * 2048 + 1 * (j 1).val
    rw [hi1]; omega
  | ⟨2, _⟩ =>
    show (j 2).val = win0_0.index t 2 * 49 + 1 * (j 2).val
    rw [hi2]; omega

/-! ## The body obligation -/

/-- The invariant with the two accumulators as memrefs owned at some contents. -/
theorem PhiA_eq (c : Dev nD) :
    (Pipeline.ΦA spec0 c : sProp 𝕄)
      = iprop(iprop((∃ d, owns (c : Thread nD τ) (Memref.whole cc0_scratch0 : Memref sig .tc .vmem S5x2048 .f32) fullShare d)
          ∗ (∃ d, owns (c : Thread nD τ) (Memref.whole cc0_scratch1 : Memref sig .tc .vmem S5x2048 .f32) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the rows its window's transfers move. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

theorem leaves_in (c : Dev nD) (t : Fin cfg0.N) :
    (dats m 0 c).leaves 0 t = iprop(∃ d, owns (c : Thread nD τ) (st0_0 t) fullShare
      (win0_0.fill (grid0.coords t) d (win0_0.cut (grid0.coords t) (blockIn m c t)))) := by
  rw [← after_in m c t]
theorem leaves_out (c : Dev nD) (t : Fin cfg0.N) :
    (dats m 0 c).leaves 1 t = iprop(∃ d, owns (c : Thread nD τ) (st0_1 t) fullShare
      (win0_1.fill (grid0.coords t) d (win0_1.cut (grid0.coords t) (blockPoolI (blockIn m c t))))) := by
  rw [← after_out m c t]; unfold Dat.leaves; rw [live_out t]

/-- The pooled rows inside the array do not depend on what the rows past its end hold. -/
theorem cut_pool (c : Dev nD) (t : Fin cfg0.N) (d : S5x2048x49.Idx → Elt Ideal .f32) :
    win0_1.cut (grid0.coords t) (blockPoolI (win0_0.fill (grid0.coords t) d (Gen.iblk m c 0 t)))
      = win0_1.cut (grid0.coords t) (blockPoolI (blockIn m c t)) := by
  obtain ⟨-, -, -, -, -, -, hx0, hx1, hx2, hy0, -⟩ := win_facts t
  have hcut : win0_0.cut (grid0.coords t) (win0_0.fill (grid0.coords t) d (Gen.iblk m c 0 t))
      = win0_0.cut (grid0.coords t) (blockIn m c t) := by
    rw [win0_0.cut_fill, cut_blockIn]
  funext j
  have hj0 : (j 0).val < min 5 (128 - 5 * t.val) := hy0 ▸ (j 0).isLt
  have hrow : ∀ k : Fin 49, win0_0.fill (grid0.coords t) d (Gen.iblk m c 0 t) (ix3 (win0_1.xinj (grid0.coords t) j 0) (win0_1.xinj (grid0.coords t) j 2) k)
      = blockIn m c t (ix3 (win0_1.xinj (grid0.coords t) j 0) (win0_1.xinj (grid0.coords t) j 2) k) := fun k =>
    eq_of_cut_eq win0_0 (grid0.coords t) hcut _ fun a => by
      match a with
      | ⟨0, _⟩ => exact lt_of_lt_of_eq hj0 hx0.symm
      | ⟨1, _⟩ => exact lt_of_lt_of_eq (win0_1.xinj (grid0.coords t) j 2).isLt hx1.symm
      | ⟨2, _⟩ => exact lt_of_lt_of_eq k.isLt hx2.symm
  show blockPoolI _ (win0_1.xinj (grid0.coords t) j) = blockPoolI _ (win0_1.xinj (grid0.coords t) j)
  unfold blockPoolI
  simp only [hrow]

set_option maxHeartbeats 1600000 in
/-- The body at any point: the input's buffer holds its fetched block, the output's and the accumulators anything;
    the run leaves the body's pooling of the whole input buffer, whose rows inside the array are those of the
    pooling of `blockIn`. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_in, before_out]
  rw [show (dats m 0 c).Φ t.succ = (dats m 0 c).Φ t.castSucc from rfl,
    show (dats m 0 c).owesAt () t.succ = (dats m 0 c).owesAt () t.castSucc from rfl,
    leaves_in, leaves_out,
    show (dats m 0 c).Φ t.castSucc = Pipeline.ΦA spec0 c from rfl, PhiA_eq]
  iintro ⟨⟨⟨HS0, HS1⟩, Hg⟩, Ho, ⟨%d0, H0⟩, ⟨%d1, H1⟩⟩
  iapply ((bodyRun c (grid0.coords t) _ _ _ _ _ _ _ _ (firstStep_all t) (lastStep_all t)
    (win0_0.fill (grid0.coords t) d0 (Gen.iblk m c 0 t))).2.2.2 Set.univ _)
  isplitl [H0]; · iexact H0
  isplitl [H1]; · iexists _; iexact H1
  isplitl [HS0]; · iexact HS0
  isplitl [HS1]; · iexact HS1
  iintro ⟨H0, ⟨%e1, H1⟩, ⟨%e5, H5⟩, ⟨%e6, H6⟩⟩
  isplitl [H5 H6 Hg]
  · isplitl [H5 H6]
    · isplitl [H5]
      · iexists _; unfold owns; iexists _; isplitr
        swap; · iexact H5
        ipureintro; rfl
      · iexists _; unfold owns; iexists _; isplitr
        swap; · iexact H6
        ipureintro; rfl
    iexact Hg
  isplitl [Ho]; · iexact Ho
  isplitl [H0]
  · iexists d0
    rw [cut_blockIn]; iexact H0
  · iexists (blockPoolI (win0_0.fill (grid0.coords t) d0 (Gen.iblk m c 0 t)))
    rw [← cut_pool m c t d0, win0_1.fill_cut]
    unfold owns; iexists _; isplitr
    swap; · iexact H1
    ipureintro
    refine (View.read_writes_of_cover _ _ VO VO.junk _ (cover c _ _ _ _ _ _ _ _ _ _ _ _)).trans ?_
    exact (outOf_eq c _ _ _ _ _ _ _ _ _ _ _ _).trans (blockPool_eq _)

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the reference terminates, and every final state has the pipeline's arrays at
    what the library computes from the proof data and every other unscoped buffer as the reshape after the region
    leaves it. -/
theorem run_main : θ_run defs (onTc (τ := τ) (main (F := Ideal))) (s₀ m ρ)
    (Pipeline.FramePost cfgs (dats m) 0 (Pipeline.afterTail₀ cfgs (dats m) 0 (Gen.V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := Gen.V0 m) (opss := [hostOps1]) (hsub := Gen.sfx_sub) (hfresh := Gen.sfx_fresh) (hkeep := Gen.sfx_keeps)
    (hmain := Gen.hmain m Variants.none) (hA := A_eq m) (hΦ := fun _ _ => rfl)

/-- The argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  Gen.frame_of m ρ (dats m) (A_eq m) (run_main m ρ)

end Cert.ReferenceIdeal.Body

end
-- ==== Proof.RefValue.lean ====
/-
  The reference's result at the extended reals: the pooled array `Pool.pooled` of the argument.

  The region leaves a [128, 2, 2048] array whose plane 0 holds every channel's maximum and whose plane 1 every
  channel's scaled sum (`planes`): point `t` writes back the pooled rows of samples `5t … 5t + 4` that lie inside the
  array, and sample `n` lies in point `n / 5`'s block. The reshape after the region reads `(n, j, 0, 0)` at
  `(n, j / 2048, j % 2048)` — the same row-major position — which is channel `j`'s maximum for `j < 2048` and
  channel `j - 2048`'s scaled sum otherwise.
-/
import proofs.«148795_g2000706038606328_pallasbulk_548_2_alg».proof.Proof.RefFrame
import Idealize.ShloMosaic.Lib.StableHlo.Run

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.Pool

variable (m : (ℓ : Loc nD τ sig) → Buf (Elt Ideal) ℓ) (ρ : Dev nD → PrngReg)

/-- The [128, 2048, 49] array is the argument re-laid: entry `(n, ch, k)` is position `k` of sample `n`, channel `ch`. -/
theorem arr3_apply (c : Dev nD) (n : Fin 128) (ch : Fin 2048) (k : Fin 49) :
    arr3 m c (ix3 n ch k) = (m ((c : Thread nD τ).loc main_arg0) : S128x2048x7x7.Idx → Elt Ideal .f32) (cell n ch k) := by
  have e : (Gen.V m c main_v0 : S128x2048x49.Idx → Elt Ideal .f32)
      = shapeCast S128x2048x49 (m ((c : Thread nD τ).loc main_arg0) : S128x2048x7x7.Idx → Elt Ideal .f32) shapeCasts_S128x2048x7x7_S128x2048x49 := by
    show StableHlo.after hostOps0 (fun b => m (c, b)) (Proc.devRef .tc main_v0) = _
    after_results
    rfl
  show (Gen.V m c main_v0 : S128x2048x49.Idx → Elt Ideal .f32) (ix3 n ch k) = _
  rw [e]
  refine shapeCast_apply (s := S128x2048x7x7) (t := S128x2048x49) _ _ (ix3 n ch k) (cell n ch k) ?_
  refine (Shape.rowMajor_val_four (d := ![128, 2048, 7, 7]) _).trans
    (Eq.trans ?_ (Shape.rowMajor_val_three (d := ![128, 2048, 49]) _).symm)
  show ((n.val * 2048 + ch.val) * 7 + k.val / 7) * 7 + k.val % 7 = (n.val * 2048 + ch.val) * 49 + k.val
  have := k.isLt
  omega

/-- Row `b` of point `t`'s input block is sample `5t + b` of the argument, when that sample exists. -/
theorem blockIn_apply (c : Dev nD) (t : Fin cfg0.N) (b : Fin 5) (ch : Fin 2048) (k : Fin 49) (n : Fin 128)
    (hn : n.val = 5 * t.val + b.val) :
    blockIn m c t (ix3 b ch k) = (m ((c : Thread nD τ).loc main_arg0) : S128x2048x7x7.Idx → Elt Ideal .f32) (cell n ch k) := by
  unfold blockIn
  refine (arr3_apply m c _ _ _).trans ?_
  refine congrArg (fun n' => (m ((c : Thread nD τ).loc main_arg0) : S128x2048x7x7.Idx → Elt Ideal .f32) (cell n' ch k)) (Fin.ext ?_)
  show (5 * t.val + b.val) % 128 = n.val
  rw [← hn]; exact Nat.mod_eq_of_lt n.isLt

/-- The pooled [128, 2, 2048] array: maxima in plane 0, scaled sums in plane 1. -/
def planes (x : SX.Idx → EReal) : S128x2x2048.Idx → Elt Ideal .f32 := fun i =>
  if (i 1).val = 0 then chanMax x ⟨(i 0).val, (i 0).isLt⟩ ⟨(i 2).val, (i 2).isLt⟩
  else chanMean x ⟨(i 0).val, (i 0).isLt⟩ ⟨(i 2).val, (i 2).isLt⟩

/-- What point `t` writes back is its block of `planes`. -/
theorem flushed_out (c : Dev nD) (t : Fin cfg0.N) :
    (dats m 0 c).flushed 1 t
      = ((cfg0.win 1).blk t).view.read (Elt Ideal) (planes (m ((c : Thread nD τ).loc main_arg0))) := by
  show (cfg0.win 1).cut (grid0.coords t) ((dats m 0 c).after 1 t) = _
  rw [after_out]
  obtain ⟨-, -, -, i0, i1, i2, -, -, -, y0, y1, y2⟩ := win_facts t
  funext j
  have hj0 : (j 0).val < min 5 (128 - 5 * t.val) := lt_of_lt_of_eq (j 0).isLt y0
  have hj1 : (j 1).val < 2 := lt_of_lt_of_eq (j 1).isLt y1
  have hj2 : (j 2).val < 2048 := lt_of_lt_of_eq (j 2).isLt y2
  have e0 : ((((cfg0.win 1).blk t).view.emb j) 0).val = 5 * t.val + (j 0).val := by
    show win0_1.index t 0 * 5 + 1 * (j 0).val = _; omega
  have e1 : ((((cfg0.win 1).blk t).view.emb j) 1).val = (j 1).val := by
    show win0_1.index t 1 * 2 + 1 * (j 1).val = _; omega
  have e2 : ((((cfg0.win 1).blk t).view.emb j) 2).val = (j 2).val := by
    show win0_1.index t 2 * 2048 + 1 * (j 2).val = _; omega
  show blockPoolI (blockIn m c t) (win0_1.xinj (grid0.coords t) j) = planes _ (((cfg0.win 1).blk t).view.emb j)
  unfold blockPoolI planes
  by_cases hp : (j 1).val = 0
  · rw [if_pos (show ((win0_1.xinj (grid0.coords t) j) 1).val = 0 from hp), if_pos (e1.trans hp)]
    refine Eq.trans ?_ (chanMax_congr _ (n := ⟨5 * t.val + (j 0).val, by omega⟩) (ch := ⟨(j 2).val, hj2⟩) e0.symm e2.symm)
    unfold chanMax
    refine congrArg (fun f => Finset.fold max negInf f (Finset.univ : Finset (Fin 49))) (funext fun k => ?_)
    exact blockIn_apply m c t ⟨(j 0).val, by omega⟩ ⟨(j 2).val, hj2⟩ k ⟨5 * t.val + (j 0).val, by omega⟩ rfl
  · rw [if_neg (show ¬((win0_1.xinj (grid0.coords t) j) 1).val = 0 from hp), if_neg (fun h => hp (e1.symm.trans h))]
    refine Eq.trans ?_ (chanMean_congr _ (n := ⟨5 * t.val + (j 0).val, by omega⟩) (ch := ⟨(j 2).val, hj2⟩) e0.symm e2.symm)
    unfold chanMean
    refine congrArg (· * inv49) (Finset.sum_congr rfl fun k _ => ?_)
    exact blockIn_apply m c t ⟨(j 0).val, by omega⟩ ⟨(j 2).val, hj2⟩ k ⟨5 * t.val + (j 0).val, by omega⟩ rfl

/-- Sample `n` is in the block of point `n / 5`. -/
theorem cover_out (i : S128x2x2048.Idx) :
    ∃ t : Fin cfg0.N, (cfg0.win 1).flush t = true ∧ i ∈ ((cfg0.win 1).blk t).view.set := by
  have hi0 : (i 0).val < 128 := (i 0).isLt
  have hi1 : (i 1).val < 2 := (i 1).isLt
  have hi2 : (i 2).val < 2048 := (i 2).isLt
  obtain ⟨t, ht⟩ : ∃ t : Fin cfg0.N, t.val = (i 0).val / 5 := ⟨⟨(i 0).val / 5, by show _ < 26; omega⟩, rfl⟩
  refine ⟨t, flush0_1 t, ?_⟩
  obtain ⟨-, -, -, i0, i1, i2, -, -, -, y0, y1, y2⟩ := win_facts t
  show i ∈ ((View.whole main_v1).slice (win0_1.rect t)).set
  rw [View.set_slice_whole, Rect.mem_set_unit]
  intro a
  match a with
  | ⟨0, _⟩ =>
    show win0_1.index t 0 * 5 ≤ (i 0).val ∧ (i 0).val < win0_1.index t 0 * 5 + win0_1.xsize (grid0.coords t) 0
    omega
  | ⟨1, _⟩ =>
    show win0_1.index t 1 * 2 ≤ (i 1).val ∧ (i 1).val < win0_1.index t 1 * 2 + win0_1.xsize (grid0.coords t) 1
    omega
  | ⟨2, _⟩ =>
    show win0_1.index t 2 * 2048 ≤ (i 2).val ∧ (i 2).val < win0_1.index t 2 * 2048 + win0_1.xsize (grid0.coords t) 2
    omega

/-- The region's array ends at `planes` of the argument. -/
theorem final_out (c : Dev nD) : (dats m 0 c).arrAt 1 cfg0.N = planes (m ((c : Thread nD τ).loc main_arg0)) :=
  (dats m 0 c).arrAt_eq_of_cover 1 _ (fun t _ => flushed_out m c t) cover_out

/-- `planes` re-laid as [128, 4096, 1, 1] is the pooled array. -/
theorem reshape_planes (x : SX.Idx → EReal) :
    shapeCast S128x4096x1x1 (planes x) shapeCasts_S128x2x2048_S128x4096x1x1 = pooled x := by
  funext i
  have h0 : (i 0).val < 128 := (i 0).isLt
  have h1 : (i 1).val < 4096 := (i 1).isLt
  have h2 : (i 2).val < 1 := (i 2).isLt
  have h3 : (i 3).val < 1 := (i 3).isLt
  refine (shapeCast_apply (s := S128x2x2048) (t := S128x4096x1x1) (planes x) _ i
    (ix3 (⟨(i 0).val, h0⟩ : Fin 128) (⟨(i 1).val / 2048, by omega⟩ : Fin 2) (⟨(i 1).val % 2048, by omega⟩ : Fin 2048)) ?_).trans ?_
  · refine (Shape.rowMajor_val_three (d := ![128, 2, 2048]) _).trans
      (Eq.trans ?_ (Shape.rowMajor_val_four (d := ![128, 4096, 1, 1]) _).symm)
    show ((i 0).val * 2 + (i 1).val / 2048) * 2048 + (i 1).val % 2048 = (((i 0).val * 4096 + (i 1).val) * 1 + (i 2).val) * 1 + (i 3).val
    omega
  · unfold planes pooled
    by_cases hlt : (i 1).val < 2048
    · rw [dif_pos hlt, if_pos (show (i 1).val / 2048 = 0 by omega)]
      exact chanMax_congr x rfl (show (i 1).val % 2048 = (i 1).val by omega)
    · rw [dif_neg hlt, if_neg (show ¬(i 1).val / 2048 = 0 by omega)]
      exact chanMean_congr x rfl (show (i 1).val % 2048 = (i 1).val - 2048 by omega)

/-- The result buffer after the reshape that follows the region. -/
theorem result_eq (c : Dev nD) :
    Pipeline.afterTail₀ cfgs (dats m) 0 (Gen.V0 m) [hostOps1] c main_v2 = pooled (m ((c : Thread nD τ).loc main_arg0)) := by
  unfold Pipeline.afterTail₀
  show StableHlo.after hostOps1 _ (Proc.devRef .tc main_v2) = _
  after_results
  rw [show Pipeline.withArrays spec0 c (Gen.V0 m c) (fun w => (dats m 0 c).arrAt w cfg0.N) (Proc.devRef .tc main_v1)
      = planes (m ((c : Thread nD τ).loc main_arg0)) from
    (Pipeline.withArrays_arr spec0 launch0.win.arr_inj c _ _ 1).trans (final_out m c)]
  exact reshape_planes _

/-- THE REFERENCE'S RUN: every weakly fair execution terminates with the result at the pooled array of the argument
    and the argument unchanged. -/
theorem run : θ_run defs (onTc (τ := τ) (main (F := Ideal))) ⟨m, fun _ => 0, ρ⟩ (fun r => ∀ c : Dev nD,
      r.2.mem ((c.tc : Thread nD τ).loc main_v2) = pooled (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (Gen.W_main_arg0 m (dats m) c)⟩)
    (run_main m ρ)

end Cert.ReferenceIdeal.Body

end
-- ==== Proof.lean ====
/-
  Global max-pooling and mean-pooling of a [128, 2048, 7, 7] array, concatenated on the channel axis: the kernel
  against its reference, at the extended reals.

  The kernel views the input as 262144 rows (sample, channel) of 49 positions, takes 4096 rows per grid point, and
  for each row writes the row's maximum and the row's product with a vector of ones times the word nearest 1/49;
  the lines after it join the two columns on the channel axis. The reference is itself a pipelined kernel over
  blocks of five samples with two scratch accumulators (a running maximum from -∞, a running sum from 0), whose
  reduction axis has one step, followed by a reshape. Both results are the same function `Pool.pooled` of the
  argument: a maximum is a fold of `max`, which absorbs the reference's extra `max` with -∞; a sum is unchanged by
  the reference's added 0 and by the kernel's factors 1; and both sides multiply by the same word. No law used needs
  the entries to be finite, so the precondition is not opened.

  The three frames: the kernel's two are its generated frame runs; the reference's is proved here (its last block
  overhangs the batch axis, so what is stated of its staging buffers is stated on the rows inside the array).
  The idealization rewrote nothing, so `preserves` is trivial.
-/
import proofs.«148795_g2000706038606328_pallasbulk_548_2_alg».proof.Defs
import proofs.«148795_g2000706038606328_pallasbulk_548_2_alg».proof.Proof.Gen.Kernel
import proofs.«148795_g2000706038606328_pallasbulk_548_2_alg».proof.Proof.Gen.Kernel.Skeleton
import proofs.«148795_g2000706038606328_pallasbulk_548_2_alg».proof.Proof.Gen.Kernel.Launch
import proofs.«148795_g2000706038606328_pallasbulk_548_2_alg».proof.Proof.Gen.Kernel.Points
import proofs.«148795_g2000706038606328_pallasbulk_548_2_alg».proof.Proof.Gen.Kernel.Frame
import proofs.«148795_g2000706038606328_pallasbulk_548_2_alg».proof.Proof.Gen.KernelIdeal
import proofs.«148795_g2000706038606328_pallasbulk_548_2_alg».proof.Proof.Gen.KernelIdeal.Skeleton
import proofs.«148795_g2000706038606328_pallasbulk_548_2_alg».proof.Proof.Gen.KernelIdeal.Launch
import proofs.«148795_g2000706038606328_pallasbulk_548_2_alg».proof.Proof.Gen.KernelIdeal.Points
import proofs.«148795_g2000706038606328_pallasbulk_548_2_alg».proof.Proof.Gen.KernelIdeal.Frame
import proofs.«148795_g2000706038606328_pallasbulk_548_2_alg».proof.Proof.Gen.ReferenceIdeal
import proofs.«148795_g2000706038606328_pallasbulk_548_2_alg».proof.Proof.Gen.ReferenceIdeal.Skeleton
import proofs.«148795_g2000706038606328_pallasbulk_548_2_alg».proof.Proof.Gen.ReferenceIdeal.Launch
import proofs.«148795_g2000706038606328_pallasbulk_548_2_alg».proof.Proof.Gen.ReferenceIdeal.Points
import proofs.«148795_g2000706038606328_pallasbulk_548_2_alg».proof.Proof.Gen.ReferenceIdeal.Frame
import proofs.«148795_g2000706038606328_pallasbulk_548_2_alg».proof.Proof.Gen.Pre_finite_inputs
import proofs.«148795_g2000706038606328_pallasbulk_548_2_alg».proof.Proof.KerValue
import proofs.«148795_g2000706038606328_pallasbulk_548_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Body.frame m ρ

/-- Run from memories that agree on the argument, both programs end with the pooled array of that argument. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0)),
    Cert.KernelIdeal.Pooled.run m ρ, ?_⟩
  refine (θ_run Cert.ReferenceIdeal.defs _ _).mono (fun _ h c => ⟨(h c).1.trans ?_, (h c).2⟩)
    (Cert.ReferenceIdeal.Body.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
